-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40x128 .f32) (main_arg6 : FVec F S40 .f32) (main_arg7 : FVec F S40x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S40x128 .f32 := Host.absf main_arg5
  let main_cst_6 : FVec F S_ .f32 := constant S_ .f32 0x7F800000#32
  let main_v20 : FVec F S40x128 .f32 := broadcastInDim S40x128 ![] bcast_S_S40x128 main_cst_6
  let main_v21 : IVec S40x128 1 := cmpf .olt main_v19 main_v20
  let main_c_7 : IVec S_ 1 := constantI S_ 1 1#1
  let main_v22 : IVec S_ 1 := (fun x v => Host.reduce IntOp.andi x v reducesTo_S40x128_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S40x128 .f32 := Host.absf main_arg7
  let main_cst_10 : FVec F S_ .f32 := constant S_ .f32 0x7F800000#32
  let main_v30 : FVec F S40x128 .f32 := broadcastInDim S40x128 ![] bcast_S_S40x128 main_cst_10
  let main_v31 : IVec S40x128 1 := cmpf .olt main_v29 main_v30
  let main_c_11 : IVec S_ 1 := constantI S_ 1 1#1
  let main_v32 : IVec S_ 1 := (fun x v => Host.reduce IntOp.andi x v reducesTo_S40x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S40x128 .f32) (main_arg6 : FVec F S40 .f32) (main_arg7 : FVec F S40x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩
abbrev S1 : Shape := ⟨1, ![1]⟩
abbrev S100000x40 : Shape := ⟨2, ![100000, 40]⟩

abbrev nBuf : Space → Nat
  | .hbm => 90
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S40x128, .f32⟩
  | .hbm, ⟨6, _⟩ => ⟨S40, .f32⟩
  | .hbm, ⟨7, _⟩ => ⟨S40x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S128x128, .bf16⟩
  | .hbm, ⟨39, _⟩ => ⟨S128x128, .f32⟩
  | .hbm, ⟨40, _⟩ => ⟨S128x128, .bf16⟩
  | .hbm, ⟨41, _⟩ => ⟨S1x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S_, .f32⟩
  | .hbm, ⟨57, _⟩ => ⟨S1600000, .f32⟩
  | .hbm, ⟨58, _⟩ => ⟨S_, .f32⟩
  | .hbm, ⟨59, _⟩ => ⟨S100000, .f32⟩
  | .hbm, ⟨60, _⟩ => ⟨S1600000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S128x128, .f32⟩
  | .hbm, ⟨70, _⟩ => ⟨S_, .i32⟩
  | .hbm, ⟨71, _⟩ => ⟨S1, .i32⟩
  | .hbm, ⟨72, _⟩ => ⟨S128x128, .f32⟩
  | .hbm, ⟨73, _⟩ => ⟨S_, .f32⟩
  | .hbm, ⟨74, _⟩ => ⟨S128x128, .f32⟩
  | .hbm, ⟨75, _⟩ => ⟨S_, .i32⟩
  | .hbm, ⟨76, _⟩ => ⟨S1, .i32⟩
  | .hbm, ⟨77, _⟩ => ⟨S128x128, .f32⟩
  | .hbm, ⟨78, _⟩ => ⟨S_, .f32⟩
  | .hbm, ⟨79, _⟩ => ⟨S128, .f32⟩
  | .hbm, ⟨80, _⟩ => ⟨S_, .i32⟩
  | .hbm, ⟨81, _⟩ => ⟨S1, .i32⟩
  | .hbm, ⟨82, _⟩ => ⟨S128, .f32⟩
  | .hbm, ⟨83, _⟩ => ⟨S128x128, .f32⟩
  | .hbm, ⟨84, _⟩ => ⟨S128x128, .bf16⟩
  | .hbm, ⟨85, _⟩ => ⟨S128x128, .f32⟩
  | .hbm, ⟨86, _⟩ => ⟨S128x128, .bf16⟩
  | .hbm, ⟨87, _⟩ => ⟨S1x128, .f32⟩
  | .hbm, ⟨88, _⟩ => ⟨S100000x128, .f32⟩
  | .hbm, ⟨89, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .bf16⟩
  | .local _ .vmem, ⟨14, _⟩ => ⟨S128x128, .bf16⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_v51 : Ref sig .tc := ⟨.hbm, 74, rfl⟩
abbrev main_c_13 : Ref sig .tc := ⟨.hbm, 75, rfl⟩
abbrev main_v52 : Ref sig .tc := ⟨.hbm, 76, rfl⟩
abbrev main_v53 : Ref sig .tc := ⟨.hbm, 77, rfl⟩
abbrev main_cst_14 : Ref sig .tc := ⟨.hbm, 78, rfl⟩
abbrev main_v54 : Ref sig .tc := ⟨.hbm, 79, rfl⟩
abbrev main_c_15 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  bcast_S_S128x128 : S_.BroadcastsInDim S128x128 (![] : Fin 0 → Fin S128x128.rank)
  bcast_S_S1 : S_.BroadcastsInDim S1 (![] : Fin 0 → Fin S1.rank)
  bcast_S_S128 : S_.BroadcastsInDim S128 (![] : Fin 0 → Fin S128.rank)
  slices_S100000x128_S100000x40_0_0 : S100000x128.Slices ![0, 0] S100000x40
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  scatter_S128x128_S1_S40x128_01_n_0_0_wf : ScatterDims.WF S128x128 S1 S40x128 [0, 1] [] [0] 0
  scatter_S128_S1_S40_0_n_0_0_wf : ScatterDims.WF S128 S1 S40 [0] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S128x128_S1_S40x128_01_n_0_0 : ScatterDims S128x128 S1 S40x128 where
  updateWindowDims := [0, 1]
  insertedWindowDims := []
  scatterDimsToOperandDims := [0]
  indexVectorDim := 0
  wf := scatter_S128x128_S1_S40x128_01_n_0_0_wf
def scatter_S128_S1_S40_0_n_0_0 : ScatterDims S128 S1 S40 where
  updateWindowDims := [0]
  insertedWindowDims := []
  scatterDimsToOperandDims := [0]
  indexVectorDim := 0
  wf := scatter_S128_S1_S40_0_n_0_0_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v58) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v60) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v61) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v62) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x40 : Shape := ⟨2, ![128, 40]⟩
abbrev S100000x40 : Shape := ⟨2, ![100000, 40]⟩
abbrev S1x40 : Shape := ⟨2, ![1, 40]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S40x128, .f32⟩
  | .hbm, ⟨6, _⟩ => ⟨S40, .f32⟩
  | .hbm, ⟨7, _⟩ => ⟨S40x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000, .f32⟩
  | .hbm, ⟨51, _⟩ => ⟨S100000x1, .f32⟩
  | .hbm, ⟨52, _⟩ => ⟨S100000x1, .f32⟩
  | .hbm, ⟨53, _⟩ => ⟨S_, .f32⟩
  | .hbm, ⟨54, _⟩ => ⟨S100000x1, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S_, .f32⟩
  | .hbm, ⟨72, _⟩ => ⟨S1600000, .f32⟩
  | .hbm, ⟨73, _⟩ => ⟨S_, .f32⟩
  | .hbm, ⟨74, _⟩ => ⟨S100000, .f32⟩
  | .hbm, ⟨75, _⟩ => ⟨S1600000x1, .i32⟩
  | .hbm, ⟨76, _⟩ => ⟨S100000, .f32⟩
  | .hbm, ⟨77, _⟩ => ⟨S_, .f32⟩
  | .hbm, ⟨78, _⟩ => ⟨S100000, .f32⟩
  | .hbm, ⟨79, _⟩ => ⟨S100000, .f32⟩
  | .hbm, ⟨80, _⟩ => ⟨S100000x1, .f32⟩
  | .hbm, ⟨81, _⟩ => ⟨S100000x128, .f32⟩
  | .hbm, ⟨82, _⟩ => ⟨S100000x128, .f32⟩
  | .hbm, ⟨83, _⟩ => ⟨S128x40, .f32⟩
  | .hbm, ⟨84, _⟩ => ⟨S100000x40, .f32⟩
  | .hbm, ⟨85, _⟩ => ⟨S1x40, .f32⟩
  | .hbm, ⟨86, _⟩ => ⟨S100000x40, .f32⟩
  | .hbm, ⟨87, _⟩ => ⟨S100000x40, .f32⟩
  | .hbm, ⟨88, _⟩ => ⟨S128x40, .f32⟩
  | .hbm, ⟨89, _⟩ => ⟨S100000x40, .f32⟩
  | .hbm, ⟨90, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_call1_v0 : Ref sig .tc := ⟨.hbm, 48, rfl⟩
abbrev main_call1_cst : Ref sig .tc := ⟨.hbm, 49, rfl⟩
abbrev main_call1_v1 : Ref sig .tc := ⟨.hbm, 50, rfl⟩
abbrev main_call1_v2 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The kernel program's run with its result buffer named.

  The program is five stretches: host operations, the first dense layer (a grid of row blocks), host
  operations, the second dense layer, a last host slice.  The buffer contents at each boundary are a fold
  from the launch memory; every execution ends with each unscoped buffer at the last boundary's contents.
  Here that fact is read at the result buffer as well as at the arguments.
-/
import proofs.«152524_j79620103733916_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at
    the last boundary's contents (the fold of the five stretches from the launch memory) and the arguments as
    launched. -/
theorem run_named : θ_run defs (onTc (τ := τ) (main (F := F))) ⟨m, fun _ => 0, ρ⟩ (fun r => ∀ c : Dev nD,
      r.2.mem ((c.tc : Thread nD τ).loc main_v63) = W5 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v63 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Run

end
-- ==== Proof.Spec.lean ====
/-
  The two dense layers as plain functions on the extended reals.

  A row of the first layer is  v_q = (sum_k a_k * Wl_kq + sum_k x_k * Wr_kq) + b_q,  then rectified,
  then divided by the Euclidean norm of the rectified row, the norm guarded from below by a small
  constant.  A row of the second layer is the same affine map with no activation.  Both depend on ONE row
  of the two left factors only, so a block of consecutive rows of the result is the same function of the
  matching blocks of rows.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A matrix with `n` rows and `c` columns of extended reals, as an array indexed by a rank-2 index. -/
abbrev Mat (n c : Nat) : Type := (⟨2, ![n, c]⟩ : Shape).Idx → EReal

/-- One entry of a row through the two linear maps and the bias: `(a·Wl + x·Wr)_q + b_q`. -/
def lin (a x : Fin 128 → EReal) (wl wr : Fin 128 → Fin 128 → EReal) (b : Fin 128 → EReal) (q : Fin 128) : EReal :=
  ((∑ k : Fin 128, a k * wl k q) + (∑ k : Fin 128, x k * wr k q)) + b q

/-- The rectified entry over the guarded Euclidean norm of the rectified row. -/
def act (v : Fin 128 → EReal) (q : Fin 128) : EReal :=
  Ideal.div (max (v q) 0)
    (max (Ideal.sqrt (∑ q' : Fin 128, max (v q') 0 * max (v q') 0)) (Ideal.ofBits .f32 0x2B8CBCCC#32))

/-- Row `r` of the affine map of two `n`-row matrices. -/
def linRow {n : Nat} (A X : Mat n 128) (Wl Wr : Mat 128 128) (B : Mat 1 128) (r : Fin n) : Fin 128 → EReal :=
  lin (fun k => A (ix2 r k)) (fun k => X (ix2 r k)) (fun k q => Wl (ix2 k q)) (fun k q => Wr (ix2 k q))
    (fun q => B (ix2 0 q))

/-- The first layer on `n` rows: affine map, rectifier, row normalisation. -/
def dense1 {n : Nat} (A X : Mat n 128) (Wl Wr : Mat 128 128) (B : Mat 1 128) : Mat n 128 :=
  fun i => act (linRow A X Wl Wr B (i 0)) (i 1)

/-- The second layer on `n` rows: the affine map alone. -/
def dense2 {n : Nat} (A X : Mat n 128) (Wl Wr : Mat 128 128) (B : Mat 1 128) : Mat n 128 :=
  fun i => linRow A X Wl Wr B (i 0) (i 1)

theorem dense1_apply {n : Nat} (A X : Mat n 128) (Wl Wr : Mat 128 128) (B : Mat 1 128) (r : Fin n) (q : Fin 128) :
    dense1 A X Wl Wr B (ix2 r q) = act (linRow A X Wl Wr B r) q := rfl

theorem dense2_apply {n : Nat} (A X : Mat n 128) (Wl Wr : Mat 128 128) (B : Mat 1 128) (r : Fin n) (q : Fin 128) :
    dense2 A X Wl Wr B (ix2 r q) = linRow A X Wl Wr B r q := rfl

/-- A row of the affine map reads row `r` of the two left factors only: if two pairs of matrices (of any
    heights) agree on the rows `r` and `r'`, so do the rows of the results. -/
theorem linRow_congr {n n' : Nat} (A X : Mat n 128) (A' X' : Mat n' 128) (Wl Wr : Mat 128 128) (B : Mat 1 128)
    (r : Fin n) (r' : Fin n') (hA : ∀ k : Fin 128, A (ix2 r k) = A' (ix2 r' k))
    (hX : ∀ k : Fin 128, X (ix2 r k) = X' (ix2 r' k)) :
    linRow A X Wl Wr B r = linRow A' X' Wl Wr B r' := by
  unfold linRow
  rw [show (fun k => A (ix2 r k)) = fun k => A' (ix2 r' k) from funext hA,
    show (fun k => X (ix2 r k)) = fun k => X' (ix2 r' k) from funext hX]

end Cert.Spec

end
-- ==== Proof.KernelHost.lean ====
/-
  The host side of the kernel program as plain functions of its arguments.

  Each graph layer first averages, for every node, the feature rows of the nodes that send it an edge
  (a row gather by the edges' source words, a scatter-add by their target words, a division by the in-degree
  clamped from below by one), then applies a dense layer.  The second layer's 40-row weights and bias are
  first written into zero arrays of 128 rows, and the last step keeps the first 40 columns of the result.
-/
import proofs.«152524_j79620103733916_1_alg».proof.KernelIdeal
import proofs.«152524_j79620103733916_1_alg».proof.Proof.Spec
import Idealize.ShloMosaic.PureOps.Ideal

noncomputable section

namespace Cert.KernelIdeal.HostSide

open Cert.KernelIdeal Idealize.ShloMosaic Idealize.SL.Sem
open Facts₀ Facts

variable [Cert.KernelIdeal.Facts]
variable {F : FTy → Type} [FloatOps F]

/-- The source word of every edge: row 0 of the edge array. -/
def srcOf (e : IVec S2x1600000 32) : IVec S1600000 32 :=
  shapeCast S1600000 (extractStridedSlice S1x1600000 ![0, 0] e slices_S2x1600000_S1x1600000_0_0) shapeCasts_S1x1600000_S1600000

/-- The target word of every edge: row 1 of the edge array. -/
def dstOf (e : IVec S2x1600000 32) : IVec S1600000 32 :=
  shapeCast S1600000 (extractStridedSlice S1x1600000 ![1, 0] e slices_S2x1600000_S1x1600000_1_0) shapeCasts_S1x1600000_S1600000

/-- The neighbour mean of the feature rows `h` along the edges `s → d`: the rows gathered at the source words
    (a negative word read from the end), summed into their targets, over the clamped in-degree. -/
def aggMean (h : FVec F S100000x128 .f32) (s d : IVec S1600000 32) : FVec F S100000x128 .f32 :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 d)
      (Host.gather gather_S100000x128_S1600000x1_S1600000x128_1_0_n_n_0_1_1128 h
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 d)
            (broadcastInDim S1600000 ![] bcast_S_S1600000 (constant S_ .f32 0x3F800000#32)))
          (broadcastInDim S100000 ![] bcast_S_S100000 (constant S_ .f32 0x3F800000#32)))))

/-- A square weight matrix transposed (and stored in the narrow format, which changes nothing at the ideal values). -/
def wT (w : FVec F S128x128 .f32) : FVec F S128x128 .bf16 :=
  truncf .bf16 (transpose S128x128 [1, 0] w transposes_S128x128_S128x128_1_0) bitsLt_bf16_f32

/-- A bias vector as a one-row matrix. -/
def bRow (b : FVec F S128 .f32) : FVec F S1x128 .f32 := shapeCast S1x128 b shapeCasts_S128_S1x128

/-- A 40-row weight matrix written into the leading rows of a zero 128-row matrix. -/
def padMat (w : FVec F S40x128 .f32) : FVec F S128x128 .f32 :=
  Host.scatter scatter_S128x128_S1_S40x128_01_n_0_0 (fun _ b => b)
    (broadcastInDim S128x128 ![] bcast_S_S128x128 (constant S_ .f32 0x00000000#32))
    (broadcastInDim S1 ![] bcast_S_S1 (constantI S_ 32 0#32)) w

/-- A length-40 bias written into the leading entries of a zero vector of length 128. -/
def padVec (b : FVec F S40 .f32) : FVec F S128 .f32 :=
  Host.scatter scatter_S128_S1_S40_0_n_0_0 (fun _ b => b)
    (broadcastInDim S128 ![] bcast_S_S128 (constant S_ .f32 0x00000000#32))
    (broadcastInDim S1 ![] bcast_S_S1 (constantI S_ 32 0#32)) b

/-- The hidden features: the first dense layer of the neighbour mean of the input and the input itself. -/
def hidden (x : FVec Ideal S100000x128 .f32) (e : IVec S2x1600000 32) (wl : FVec Ideal S128x128 .f32)
    (bl : FVec Ideal S128 .f32) (wr : FVec Ideal S128x128 .f32) : FVec Ideal S100000x128 .f32 :=
  Cert.Spec.dense1 (n := 100000) (aggMean x (srcOf e) (dstOf e)) x (wT wl) (wT wr) (bRow bl)

/-- The kernel program's result as one function of its eight arguments. -/
def kernelOut (x : FVec Ideal S100000x128 .f32) (e : IVec S2x1600000 32) (wl1 : FVec Ideal S128x128 .f32)
    (bl1 : FVec Ideal S128 .f32) (wr1 : FVec Ideal S128x128 .f32) (wl2 : FVec Ideal S40x128 .f32)
    (bl2 : FVec Ideal S40 .f32) (wr2 : FVec Ideal S40x128 .f32) : FVec Ideal S100000x40 .f32 :=
  extractStridedSlice S100000x40 ![0, 0]
    (Cert.Spec.dense2 (n := 100000) (aggMean (hidden x e wl1 bl1 wr1) (srcOf e) (dstOf e)) (hidden x e wl1 bl1 wr1)
      (wT (padMat wl2)) (wT (padMat wr2)) (bRow (padVec bl2)))
    slices_S100000x128_S100000x40_0_0

end Cert.KernelIdeal.HostSide

end
-- ==== Proof.KernelFold.lean ====
/-
  The kernel program's result read back through its five stretches.

  The result buffer is the last slice of the second dense layer's output array; that array is what the second
  grid leaves, a function of the arrays the grid was entered with; those are host functions of the first
  grid's output array and of the arguments; and so on back to the launch memory.  Each step is read off the
  fold of the stretches; the two grids' arrays are taken from the hypotheses `hfin0`, `hfin1` (what a grid
  leaves in its output array, as a function of the contents it was entered with).
-/
import proofs.«152524_j79620103733916_1_alg».proof.Proof.Gen.KernelIdeal.Frame
import proofs.«152524_j79620103733916_1_alg».proof.Proof.KernelHost

set_option maxRecDepth 16384

noncomputable section

namespace Cert.KernelIdeal.Fold

open Cert.KernelIdeal Cert.KernelIdeal.Gen Cert.KernelIdeal.HostSide
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The contents the first grid is entered with -/

theorem entry0_agg (c : Dev nD) : W1 m ρ c (Proc.devRef .tc main_v22)
    = aggMean (F := Ideal) (m ((c : Thread nD τ).loc main_arg0)) (srcOf (m ((c : Thread nD τ).loc main_arg1))) (dstOf (m ((c : Thread nD τ).loc main_arg1))) := by
  show StableHlo.after hostOps0 (W0 m ρ c) (Proc.devRef .tc main_v22) = _
  after_results_simp
  rfl

theorem entry0_x (c : Dev nD) : W1 m ρ c (Proc.devRef .tc main_arg0) = m ((c : Thread nD τ).loc main_arg0) := by
  show StableHlo.after hostOps0 (W0 m ρ c) (Proc.devRef .tc main_arg0) = _
  after_results_simp

theorem entry0_wl (c : Dev nD) : W1 m ρ c (Proc.devRef .tc main_v24) = wT (F := Ideal) (m ((c : Thread nD τ).loc main_arg2)) := by
  show StableHlo.after hostOps0 (W0 m ρ c) (Proc.devRef .tc main_v24) = _
  after_results_simp
  rfl

theorem entry0_wr (c : Dev nD) : W1 m ρ c (Proc.devRef .tc main_v26) = wT (F := Ideal) (m ((c : Thread nD τ).loc main_arg4)) := by
  show StableHlo.after hostOps0 (W0 m ρ c) (Proc.devRef .tc main_v26) = _
  after_results_simp
  rfl

theorem entry0_b (c : Dev nD) : W1 m ρ c (Proc.devRef .tc main_v27) = bRow (F := Ideal) (m ((c : Thread nD τ).loc main_arg3)) := by
  show StableHlo.after hostOps0 (W0 m ρ c) (Proc.devRef .tc main_v27) = _
  after_results_simp
  rfl

theorem entry0_src (c : Dev nD) : W1 m ρ c (Proc.devRef .tc main_v1) = srcOf (m ((c : Thread nD τ).loc main_arg1)) := by
  show StableHlo.after hostOps0 (W0 m ρ c) (Proc.devRef .tc main_v1) = _
  after_results_simp
  rfl

theorem entry0_dst (c : Dev nD) : W1 m ρ c (Proc.devRef .tc main_v3) = dstOf (m ((c : Thread nD τ).loc main_arg1)) := by
  show StableHlo.after hostOps0 (W0 m ρ c) (Proc.devRef .tc main_v3) = _
  after_results_simp
  rfl

theorem entry0_wl2 (c : Dev nD) : W1 m ρ c (Proc.devRef .tc main_arg5) = m ((c : Thread nD τ).loc main_arg5) := by
  show StableHlo.after hostOps0 (W0 m ρ c) (Proc.devRef .tc main_arg5) = _
  after_results_simp

theorem entry0_bl2 (c : Dev nD) : W1 m ρ c (Proc.devRef .tc main_arg6) = m ((c : Thread nD τ).loc main_arg6) := by
  show StableHlo.after hostOps0 (W0 m ρ c) (Proc.devRef .tc main_arg6) = _
  after_results_simp

theorem entry0_wr2 (c : Dev nD) : W1 m ρ c (Proc.devRef .tc main_arg7) = m ((c : Thread nD τ).loc main_arg7) := by
  show StableHlo.after hostOps0 (W0 m ρ c) (Proc.devRef .tc main_arg7) = _
  after_results_simp

/-! ## What the first grid leaves, and the buffers it does not touch -/

theorem mid_src (c : Dev nD) : W2 m ρ c (Proc.devRef .tc main_v1) = srcOf (m ((c : Thread nD τ).loc main_arg1)) :=
  (W2_of_ne m ρ c main_v1 (by decide)).trans (entry0_src m ρ c)
theorem mid_dst (c : Dev nD) : W2 m ρ c (Proc.devRef .tc main_v3) = dstOf (m ((c : Thread nD τ).loc main_arg1)) :=
  (W2_of_ne m ρ c main_v3 (by decide)).trans (entry0_dst m ρ c)
theorem mid_wl2 (c : Dev nD) : W2 m ρ c (Proc.devRef .tc main_arg5) = m ((c : Thread nD τ).loc main_arg5) :=
  (W2_of_ne m ρ c main_arg5 (by decide)).trans (entry0_wl2 m ρ c)
theorem mid_bl2 (c : Dev nD) : W2 m ρ c (Proc.devRef .tc main_arg6) = m ((c : Thread nD τ).loc main_arg6) :=
  (W2_of_ne m ρ c main_arg6 (by decide)).trans (entry0_bl2 m ρ c)
theorem mid_wr2 (c : Dev nD) : W2 m ρ c (Proc.devRef .tc main_arg7) = m ((c : Thread nD τ).loc main_arg7) :=
  (W2_of_ne m ρ c main_arg7 (by decide)).trans (entry0_wr2 m ρ c)

/-! ## The contents the second grid is entered with, over the first grid's exit contents -/

theorem entry1_agg (c : Dev nD) : W3 m ρ c (Proc.devRef .tc main_v47)
    = aggMean (F := Ideal) (W2 m ρ c (Proc.devRef .tc main_v28)) (W2 m ρ c (Proc.devRef .tc main_v1)) (W2 m ρ c (Proc.devRef .tc main_v3)) := by
  show StableHlo.after hostOps1 (W2 m ρ c) (Proc.devRef .tc main_v47) = _
  after_results_simp
  rfl

theorem entry1_h (c : Dev nD) : W3 m ρ c (Proc.devRef .tc main_v28) = W2 m ρ c (Proc.devRef .tc main_v28) := by
  show StableHlo.after hostOps1 (W2 m ρ c) (Proc.devRef .tc main_v28) = _
  after_results_simp

theorem entry1_wl (c : Dev nD) : W3 m ρ c (Proc.devRef .tc main_v58) = wT (F := Ideal) (padMat (F := Ideal) (W2 m ρ c (Proc.devRef .tc main_arg5))) := by
  show StableHlo.after hostOps1 (W2 m ρ c) (Proc.devRef .tc main_v58) = _
  after_results_simp
  rfl

theorem entry1_wr (c : Dev nD) : W3 m ρ c (Proc.devRef .tc main_v60) = wT (F := Ideal) (padMat (F := Ideal) (W2 m ρ c (Proc.devRef .tc main_arg7))) := by
  show StableHlo.after hostOps1 (W2 m ρ c) (Proc.devRef .tc main_v60) = _
  after_results_simp
  rfl

theorem entry1_b (c : Dev nD) : W3 m ρ c (Proc.devRef .tc main_v61) = bRow (F := Ideal) (padVec (F := Ideal) (W2 m ρ c (Proc.devRef .tc main_arg6))) := by
  show StableHlo.after hostOps1 (W2 m ρ c) (Proc.devRef .tc main_v61) = _
  after_results_simp
  rfl

/-! ## The last slice -/

theorem exit_slice (c : Dev nD) : W5 m ρ c (Proc.devRef .tc main_v63)
    = extractStridedSlice S100000x40 ![0, 0] (W4 m ρ c (Proc.devRef .tc main_v62)) slices_S100000x128_S100000x40_0_0 := by
  show StableHlo.after hostOps2 (W4 m ρ c) (Proc.devRef .tc main_v63) = _
  after_results_simp

/-! ## The result, from the launch memory -/

/-- The kernel program's result buffer ends at `kernelOut` of the argument arrays, given what each grid leaves in
    its output array as a function of the contents it was entered with. -/
theorem result_eq
    (hfin0 : ∀ (V : (c : Dev nD) → (b : Ref sig .tc) → Buf (Elt Ideal) ((c : Thread nD τ).loc b)) (c : Dev nD),
      (dat0 V c).arrAt 5 cfg0.N
        = Cert.Spec.dense1 (n := 100000) (V c main_v22) (V c main_arg0) (V c main_v24) (V c main_v26) (V c main_v27))
    (hfin1 : ∀ (V : (c : Dev nD) → (b : Ref sig .tc) → Buf (Elt Ideal) ((c : Thread nD τ).loc b)) (c : Dev nD),
      (dat1 V c).arrAt 5 cfg1.N
        = Cert.Spec.dense2 (n := 100000) (V c main_v47) (V c main_v28) (V c main_v58) (V c main_v60) (V c main_v61))
    (c : Dev nD) :
    W5 m ρ c (Proc.devRef .tc main_v63)
      = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h1 : W2 m ρ c (Proc.devRef .tc main_v28) = hidden (m ((c : Thread nD τ).loc main_arg0)) (m ((c : Thread nD τ).loc main_arg1)) (m ((c : Thread nD τ).loc main_arg2)) (m ((c : Thread nD τ).loc main_arg3)) (m ((c : Thread nD τ).loc main_arg4)) := by
    refine (W2_arr m ρ c 5).trans ((hfin0 (V1 m ρ) c).trans ?_)
    show Cert.Spec.dense1 (n := 100000) (W1 m ρ c (Proc.devRef .tc main_v22)) (W1 m ρ c (Proc.devRef .tc main_arg0))
      (W1 m ρ c (Proc.devRef .tc main_v24)) (W1 m ρ c (Proc.devRef .tc main_v26)) (W1 m ρ c (Proc.devRef .tc main_v27)) = _
    rw [entry0_agg, entry0_x, entry0_wl, entry0_wr, entry0_b]
    rfl
  refine (exit_slice m ρ c).trans ?_
  have h2 : W4 m ρ c (Proc.devRef .tc main_v62)
      = Cert.Spec.dense2 (n := 100000) (aggMean (F := Ideal) (hidden (m ((c : Thread nD τ).loc main_arg0)) (m ((c : Thread nD τ).loc main_arg1)) (m ((c : Thread nD τ).loc main_arg2)) (m ((c : Thread nD τ).loc main_arg3)) (m ((c : Thread nD τ).loc main_arg4))) (srcOf (m ((c : Thread nD τ).loc main_arg1))) (dstOf (m ((c : Thread nD τ).loc main_arg1))))
          (hidden (m ((c : Thread nD τ).loc main_arg0)) (m ((c : Thread nD τ).loc main_arg1)) (m ((c : Thread nD τ).loc main_arg2)) (m ((c : Thread nD τ).loc main_arg3)) (m ((c : Thread nD τ).loc main_arg4))) (wT (F := Ideal) (padMat (F := Ideal) (m ((c : Thread nD τ).loc main_arg5)))) (wT (F := Ideal) (padMat (F := Ideal) (m ((c : Thread nD τ).loc main_arg7))))
          (bRow (F := Ideal) (padVec (F := Ideal) (m ((c : Thread nD τ).loc main_arg6)))) := by
    refine (W4_arr m ρ c 5).trans ((hfin1 (V3 m ρ) c).trans ?_)
    show Cert.Spec.dense2 (n := 100000) (W3 m ρ c (Proc.devRef .tc main_v47)) (W3 m ρ c (Proc.devRef .tc main_v28))
      (W3 m ρ c (Proc.devRef .tc main_v58)) (W3 m ρ c (Proc.devRef .tc main_v60)) (W3 m ρ c (Proc.devRef .tc main_v61)) = _
    rw [entry1_agg, entry1_h, entry1_wl, entry1_wr, entry1_b, h1, mid_src, mid_dst, mid_wl2, mid_wr2, mid_bl2]
  rw [h2]
  rfl

end Cert.KernelIdeal.Fold

end
-- ==== Proof.Pay.lean ====
/-
  What one grid point of each dense layer computes from its blocks, entry by entry.

  A point holds a block of 5000 consecutive rows of each of the two left factors (5000 x 128), the two whole
  128 x 128 weight matrices and the one-row bias.  Narrowing the left factors to the shorter float format
  changes nothing on the extended reals, and a shape cast to the same shape is the identity, so the block
  computation is, entry (p, q):

    v_pq = (sum_k a_pk * Wl_kq + sum_k x_pk * Wr_kq) + b_q          (both layers)

  and, for the first layer only, max(v_pq, 0) divided by max(sqrt(sum_q' max(v_pq', 0)^2), eps).  The row sum
  is taken along the 128 lanes, viewed as a column (5000 x 1), and repeated along the row again: at (p, q) all
  of that reads the one number belonging to row p.  So each payload is exactly the layer of the specification
  on 5000 rows, applied to the blocks.
-/
import proofs.«152524_j79620103733916_1_alg».proof.Proof.Gen.KernelIdeal.Skeleton
import proofs.«152524_j79620103733916_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Idealize.ShloMosaic Idealize.ShloMosaic.ValueIdx Cert.KernelIdeal Cert.KernelIdeal.Gen

local notation "D" => dot_S5000x128_S128x128_S5000x128_1_0_0_1_n_n

/-! ## The block product

The product contracts the left operand's column with the right operand's row: at output entry (p, q) and inner
position k the left operand is read at (p, k) and the right one at (k, q). -/

/-- The left operand's row is the output's row. -/
theorem lhs_row (i : S5000x128.Idx) (q : (D).contr.Idx) : ((D).lhsIdx i q 0).val = (i 0).val := by
  unfold DotDims.lhsIdx
  rw [dif_neg (show ¬(0 : Fin S5000x128.rank) ∈ (D).lhsBatch by decide), dif_pos (show (0 : Fin S5000x128.rank) ∈ (D).lhsNonContracting by decide)]
  rfl

/-- The left operand's column is the inner position. -/
theorem lhs_col (i : S5000x128.Idx) (q : (D).contr.Idx) : ((D).lhsIdx i q 1).val = (q ⟨0, by decide⟩).val :=
  (D).lhsIdx_val_of_single rfl i q

/-- The right operand's row is the inner position. -/
theorem rhs_row (i : S5000x128.Idx) (q : (D).contr.Idx) : ((D).rhsIdx i q 0).val = (q ⟨0, by decide⟩).val :=
  (D).rhsIdx_val_of_single rfl i q

/-- The right operand's column is the output's column. -/
theorem rhs_col (i : S5000x128.Idx) (q : (D).contr.Idx) : ((D).rhsIdx i q 1).val = (i 1).val := by
  unfold DotDims.rhsIdx
  rw [dif_neg (show ¬(1 : Fin S128x128.rank) ∈ (D).rhsBatch by decide), dif_pos (show (1 : Fin S128x128.rank) ∈ (D).rhsNonContracting by decide)]
  rfl

/-- The block product into the zero splat, at row p and column q: the sum over the 128 inner positions. -/
theorem matmul_block_apply (a : FVec Ideal S5000x128 .bf16) (w : FVec Ideal S128x128 .bf16) (p : Fin 5000) (q : Fin 128) :
    matmul (F := Ideal) (D) none a w (constant (F := Ideal) S5000x128 .f32 0x00000000#32) (ix2 p q)
      = ∑ k : Fin 128, a (ix2 p k) * w (ix2 k q) := by
  simp only [matmul]
  rw [Ideal.matmul_constant_zero_apply, ← Equiv.sum_comp (ValueIdx.contrEquiv1 (D) 128 rfl rfl).symm]
  refine Finset.sum_congr rfl fun k _ => ?_
  have hk := ValueIdx.contrEquiv1_symm_val (D) 128 rfl rfl k
  have el : (D).lhsIdx (ix2 p q) ((ValueIdx.contrEquiv1 (D) 128 rfl rfl).symm k) = ix2 p k := funext fun a => Fin.ext (by
    match a with
    | ⟨0, _⟩ => exact lhs_row _ _
    | ⟨1, _⟩ => exact (lhs_col _ _).trans hk)
  have er : (D).rhsIdx (ix2 p q) ((ValueIdx.contrEquiv1 (D) 128 rfl rfl).symm k) = ix2 k q := funext fun a => Fin.ext (by
    match a with
    | ⟨0, _⟩ => exact (rhs_row _ _).trans hk
    | ⟨1, _⟩ => exact rhs_col _ _)
  rw [el, er]

/-- The affine part of a block, at row p and column q. -/
theorem affine_apply (a x : FVec Ideal S5000x128 .f32) (wl wr : FVec Ideal S128x128 .bf16) (b : FVec Ideal S1x128 .f32)
    (p : Fin 5000) (q : Fin 128) :
    addf (addf (matmul (F := Ideal) (D) none (truncf .bf16 a bitsLt_bf16_f32) wl (constant (F := Ideal) S5000x128 .f32 0x00000000#32))
        (matmul (F := Ideal) (D) none (truncf .bf16 x bitsLt_bf16_f32) wr (constant (F := Ideal) S5000x128 .f32 0x00000000#32)))
      (broadcastTo S5000x128 b broadcasts_S1x128_S5000x128) (ix2 p q)
      = Cert.Spec.linRow (n := 5000) a x wl wr b p q := by
  rw [addf_apply, addf_apply, matmul_block_apply, matmul_block_apply, broadcastTo_1b_ab_apply]
  rfl

/-- The sum along a row of a block. -/
theorem rowsum_apply (v : FVec Ideal S5000x128 .f32) (hacc : (0x00000000#32 : BitVec 32) = 0x00000000#32) (p : Fin 5000) :
    multiReduction (F := Ideal) .add [1] S5000 v 0x00000000#32 reduces_S5000x128_S5000 (.inl rfl) hacc (ix1 p)
      = ∑ k : Fin 128, v (ix2 p k) := by
  refine (Ideal.multiReduction_add_single v 0x00000000#32 reduces_S5000x128_S5000 (.inl rfl) hacc (ix1 p)).trans ?_
  refine Finset.sum_congr rfl fun k _ => congrArg v ?_
  funext a
  match a with
  | ⟨0, _⟩ => rfl
  | ⟨1, _⟩ => rfl

/-- A vector of 5000 entries seen as one column. -/
theorem column_apply {α : Type} (v : S5000.Idx → α) (p : Fin 5000) (u : Fin 1) :
    shapeCast S5000x1 v shapeCasts_S5000_S5000x1 (ix2 p u) = v (ix1 p) :=
  shapeCast_apply v shapeCasts_S5000_S5000x1 _ _ (by
    have hu : u.val = 0 := by omega
    rw [Shape.rowMajor_val_two, Shape.rowMajor_val_one]
    show p.val = p.val * 1 + u.val
    rw [hu, Nat.mul_one, Nat.add_zero])

/-- One column repeated along every row. -/
theorem spread_apply {α : Type} (v : S5000x1.Idx → α) (p : Fin 5000) (q : Fin 128) :
    broadcastTo S5000x128 v broadcasts_S5000x1_S5000x128 (ix2 p q) = v (ix2 p (0 : Fin 1)) := by
  refine broadcastTo_apply v broadcasts_S5000x1_S5000x128 (ix2 p q) (ix2 p (0 : Fin 1)) fun ax => ?_
  match ax with
  | ⟨0, _⟩ =>
    show p.val = if (5000 : Nat) = 1 then 0 else p.val
    rw [if_neg (by decide)]
  | ⟨1, _⟩ => rfl

/-- Rectify a block, then divide each row by its guarded Euclidean norm: at row p, column q. -/
theorem normalise_apply (v : FVec Ideal S5000x128 .f32) (hacc : (0x00000000#32 : BitVec 32) = 0x00000000#32) (p : Fin 5000) (q : Fin 128) :
    divf (maximumf v (broadcast S5000x128 (Scalar.ofBits (F := Ideal) .f32 0x00000000#32)))
      (broadcastTo S5000x128
        (maximumf (sqrt (shapeCast S5000x1 (multiReduction (F := Ideal) .add [1] S5000
            (mulf (maximumf v (broadcast S5000x128 (Scalar.ofBits (F := Ideal) .f32 0x00000000#32)))
              (maximumf v (broadcast S5000x128 (Scalar.ofBits (F := Ideal) .f32 0x00000000#32))))
            0x00000000#32 reduces_S5000x128_S5000 (.inl rfl) hacc) shapeCasts_S5000_S5000x1))
          (broadcast S5000x1 (Scalar.ofBits (F := Ideal) .f32 0x2B8CBCCC#32)))
        broadcasts_S5000x1_S5000x128) (ix2 p q)
      = Cert.Spec.act (fun q' => v (ix2 p q')) q := by
  have hs : ∀ b : BitVec 32, Scalar.ofBits (F := Ideal) .f32 b = Ideal.ofBits .f32 b := fun _ => rfl
  rw [divf_apply, spread_apply, maximumf_apply, maximumf_apply, broadcast_apply, broadcast_apply]
  show Ideal.div _ (max (Ideal.sqrt (shapeCast S5000x1 _ shapeCasts_S5000_S5000x1 (ix2 p (0 : Fin 1)))) _) = _
  rw [column_apply, rowsum_apply]
  simp only [mulf_apply, maximumf_apply, broadcast_apply, hs, Ideal.ofBits_zero_f32]
  rfl

/-- The second region's payload is the affine map of its blocks. -/
theorem pay1_eq (x0 x1 : Vec Ideal S5000x128 .f32) (x2 x3 : Vec Ideal S128x128 .bf16) (x4 : Vec Ideal S1x128 .f32) :
    Gen.k1_pay1 (F := Ideal) x0 x1 x2 x3 x4 = Cert.Spec.dense2 (n := 5000) x0 x1 x2 x3 x4 := by
  funext j
  obtain ⟨p, q, rfl⟩ : ∃ (p : Fin 5000) (q : Fin 128), j = ix2 p q := ⟨j 0, j 1, eq_ix2 j⟩
  unfold Gen.k1_pay1
  simp only [shapeCast_self]
  exact affine_apply x0 x1 x2 x3 x4 p q

/-- The first region's payload is the affine map of its blocks, rectified and row-normalised. -/
theorem pay0_eq (x0 x1 : Vec Ideal S5000x128 .f32) (x2 x3 : Vec Ideal S128x128 .bf16) (x4 : Vec Ideal S1x128 .f32) :
    Gen.k0_pay1 (F := Ideal) x0 x1 x2 x3 x4 = Cert.Spec.dense1 (n := 5000) x0 x1 x2 x3 x4 := by
  funext j
  obtain ⟨p, q, rfl⟩ : ∃ (p : Fin 5000) (q : Fin 128), j = ix2 p q := ⟨j 0, j 1, eq_ix2 j⟩
  unfold Gen.k0_pay1
  simp only [shapeCast_self]
  refine (normalise_apply _ rfl p q).trans ?_
  rw [Cert.Spec.dense1_apply]
  exact congrArg (fun v => Cert.Spec.act v q) (funext fun q' => affine_apply x0 x1 x2 x3 x4 p q')

end Cert.KernelIdeal.Pay

end
-- ==== Proof.Region0.lean ====
/-
  The first dense layer's region as one function of whole arrays.

  The region walks 20 grid points.  At point t each of the two left factors (100000 x 128) contributes its block
  of rows 5000 t ... 5000 t + 4999, the two weight matrices and the bias row are read whole (their one block sits
  at block index (0, 0)), and the rows 5000 t ... 5000 t + 4999 of the result are written.  An entry of a block sits
  in its array at block index times block size plus the entry's own coordinate, on each axis.

  An entry of the layer depends on ONE row of the two left factors only (and on the whole weights and bias), so
  the layer applied to the blocks of point t is the block of the layer applied to the whole arrays.  Every row r
  of the result lies in the block of point r / 5000, so after the last point the result array is the layer of
  the arrays the region found, everywhere.
-/
import proofs.«152524_j79620103733916_1_alg».proof.Proof.Gen.KernelIdeal.Frame
import proofs.«152524_j79620103733916_1_alg».proof.Proof.Pay
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body reads and writes each staging buffer whole: from offset zero on both axes. -/
theorem zero_offsets : (![0, 0] : Fin 2 → Nat) = fun _ => 0 := funext fun a => by fin_cases a <;> rfl

/-- Which block each window holds at point t, checked over the 20 points: the two left factors and the result
    move down one block of rows per point; the weights and the bias stay at their one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry y of the first left factor's block at point t is the array's entry 5000 t rows further down. -/
theorem left_block (c : Dev nD) (t : Fin cfg0.N) (y : S5000x128.Idx) (i : S100000x128.Idx)
    (h0 : (i 0).val = t.val * 5000 + (y 0).val) (h1 : (i 1).val = (y 1).val) :
    (iblk0 V c 0 t : Vec Ideal S5000x128 .f32) y = (V c main_v22 : S100000x128.Idx → EReal) i := by
  obtain ⟨e0, e1, -⟩ := block_indices t
  unfold iblk0
  rw [View.read_apply]
  show V c main_v22 (((cfg0.win 0).blk t).view.emb y) = V c main_v22 i
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The same for the second left factor. -/
theorem right_block (c : Dev nD) (t : Fin cfg0.N) (y : S5000x128.Idx) (i : S100000x128.Idx)
    (h0 : (i 0).val = t.val * 5000 + (y 0).val) (h1 : (i 1).val = (y 1).val) :
    (iblk0 V c 1 t : Vec Ideal S5000x128 .f32) y = (V c main_arg0 : S100000x128.Idx → EReal) i := by
  obtain ⟨-, -, e0, e1, -⟩ := block_indices t
  unfold iblk0
  rw [View.read_apply]
  show V c main_arg0 (((cfg0.win 1).blk t).view.emb y) = V c main_arg0 i
  congr 1
  funext a
  apply Fin.ext
  match a with
  | ⟨0, _⟩ => show win0_1.index t (0 : Fin 2) * 5000 + 1 * (y 0).val = (i 0).val; rw [e0, h0]; omega
  | ⟨1, _⟩ => show win0_1.index t (1 : Fin 2) * 128 + 1 * (y 1).val = (i 1).val; rw [e1, h1]; omega

/-- The first weight matrix's one block is the whole matrix. -/
theorem left_weights (c : Dev nD) (t : Fin cfg0.N) :
    (iblk0 V c 2 t : Vec Ideal S128x128 .bf16) = (V c main_v24 : S128x128.Idx → EReal) := by
  obtain ⟨-, -, -, -, e0, e1, -⟩ := block_indices t
  funext y
  unfold iblk0
  rw [View.read_apply]
  show V c main_v24 (((cfg0.win 2).blk t).view.emb y) = V c main_v24 y
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The second weight matrix's one block is the whole matrix. -/
theorem right_weights (c : Dev nD) (t : Fin cfg0.N) :
    (iblk0 V c 3 t : Vec Ideal S128x128 .bf16) = (V c main_v26 : S128x128.Idx → EReal) := by
  obtain ⟨-, -, -, -, -, -, e0, e1, -⟩ := block_indices t
  funext y
  unfold iblk0
  rw [View.read_apply]
  show V c main_v26 (((cfg0.win 3).blk t).view.emb y) = V c main_v26 y
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The bias row's one block is the whole row. -/
theorem bias_row (c : Dev nD) (t : Fin cfg0.N) :
    (iblk0 V c 4 t : Vec Ideal S1x128 .f32) = (V c main_v27 : S1x128.Idx → EReal) := by
  obtain ⟨-, -, -, -, -, -, -, -, e0, e1, -⟩ := block_indices t
  funext y
  unfold iblk0
  rw [View.read_apply]
  show V c main_v27 (((cfg0.win 4).blk t).view.emb y) = V c main_v27 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- The layer on a block of rows is the block of the layer on all rows: if the 5000-row factors are rows
    5000 s ... 5000 s + 4999 of the 100000-row ones, entry (p, q) of the small result is entry (5000 s + p, q) of the
    large one, because row p of the small affine map reads the same numbers as row 5000 s + p of the large one. -/
theorem dense1_rows (A X : Cert.Spec.Mat 100000 128) (A' X' : Cert.Spec.Mat 5000 128) (Wl Wr : Cert.Spec.Mat 128 128)
    (B : Cert.Spec.Mat 1 128) (s : Nat)
    (hA : ∀ (y : S5000x128.Idx) (i : S100000x128.Idx), (i 0).val = s * 5000 + (y 0).val → (i 1).val = (y 1).val → A' y = A i)
    (hX : ∀ (y : S5000x128.Idx) (i : S100000x128.Idx), (i 0).val = s * 5000 + (y 0).val → (i 1).val = (y 1).val → X' y = X i)
    (j : S5000x128.Idx) (i : S100000x128.Idx) (h0 : (i 0).val = s * 5000 + (j 0).val) (h1 : (i 1).val = (j 1).val) :
    Cert.Spec.dense1 A' X' Wl Wr B j = Cert.Spec.dense1 A X Wl Wr B i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext h1
  rw [Cert.Spec.dense1_apply, Cert.Spec.dense1_apply]
  exact congrArg (fun v => Cert.Spec.act v q') (Cert.Spec.linRow_congr A' X' A X Wl Wr B p r
    (fun k => hA (ix2 p k) (ix2 r k) h0 rfl) (fun k => hX (ix2 p k) (ix2 r k) h0 rfl))

/-- What point t writes back is block t of the layer applied to the whole arrays. -/
theorem flushed_eq (c : Dev nD) (t : Fin cfg0.N) :
    (dat0 V c).flushed 5 t = ((cfg0.win 5).blk t).view.read (Elt Ideal)
      (Cert.Spec.dense1 (n := 100000) (V c main_v22) (V c main_arg0) (V c main_v24) (V c main_v26) (V c main_v27)) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x128) zero_offsets,
    View.ld_unit_zero (S := S1x128) zero_offsets]
  rw [Pay.pay0_eq, left_weights, right_weights, bias_row]
  obtain ⟨-, -, -, -, -, -, -, -, -, -, e0, e1⟩ := block_indices t
  funext j
  rw [View.read_apply]
  refine dense1_rows _ _ _ _ _ _ _ t.val (left_block V c t) (right_block V c t) j _ ?_ ?_
  · show win0_5.index t (0 : Fin 2) * 5000 + 1 * (j 0).val = _; rw [e0]; omega
  · show win0_5.index t (1 : Fin 2) * 128 + 1 * (j 1).val = _; rw [e1]; omega

/-- An index of the result array lies in point t's block iff each coordinate lies in the block's range. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v28).slice (win0_5.rect t)).set ↔ _
  rw [View.set_slice_whole, Rect.mem_set_unit]
  exact Iff.rfl

/-- Row r of the result is written by point r / 5000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have ht : t.val = (i 0).val / 5000 := rfl
  obtain ⟨-, -, -, -, -, -, -, -, -, -, e0, e1⟩ := block_indices t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

/-- After the region the result array is the first layer of the arrays the region found. -/
theorem final0 (c : Dev nD) :
    (Gen.dat0 V c).arrAt 5 cfg0.N = Cert.Spec.dense1 (n := 100000) (V c main_v22) (V c main_arg0) (V c main_v24)
      (V c main_v26) (V c main_v27) :=
  (dat0 V c).arrAt_eq_of_cover 5 _ (fun t _ => flushed_eq V c t) cover

end Cert.KernelIdeal.Region0

end
-- ==== Proof.Region1.lean ====
/-
  The second dense layer's region as one function of whole arrays.

  The region walks 20 grid points.  At point t each of the two left factors (100000 x 128) contributes its block
  of rows 5000 t ... 5000 t + 4999, the two weight matrices and the bias row are read whole (their one block sits
  at block index (0, 0)), and the rows 5000 t ... 5000 t + 4999 of the result are written.  An entry of a block sits
  in its array at block index times block size plus the entry's own coordinate, on each axis.

  An entry of the affine map depends on ONE row of the two left factors only (and on the whole weights and
  bias), so the map applied to the blocks of point t is the block of the map applied to the whole arrays.  Every
  row r of the result lies in the block of point r / 5000, so after the last point the result array is the affine
  map of the arrays the region found, everywhere.
-/
import proofs.«152524_j79620103733916_1_alg».proof.Proof.Gen.KernelIdeal.Frame
import proofs.«152524_j79620103733916_1_alg».proof.Proof.Pay
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body reads and writes each staging buffer whole: from offset zero on both axes. -/
theorem zero_offsets : (![0, 0] : Fin 2 → Nat) = fun _ => 0 := funext fun a => by fin_cases a <;> rfl

/-- Which block each window holds at point t, checked over the 20 points: the two left factors and the result
    move down one block of rows per point; the weights and the bias stay at their one block. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry y of the first left factor's block at point t is the array's entry 5000 t rows further down. -/
theorem left_block (c : Dev nD) (t : Fin cfg1.N) (y : S5000x128.Idx) (i : S100000x128.Idx)
    (h0 : (i 0).val = t.val * 5000 + (y 0).val) (h1 : (i 1).val = (y 1).val) :
    (iblk1 V c 0 t : Vec Ideal S5000x128 .f32) y = (V c main_v47 : S100000x128.Idx → EReal) i := by
  obtain ⟨e0, e1, -⟩ := block_indices t
  unfold iblk1
  rw [View.read_apply]
  show V c main_v47 (((cfg1.win 0).blk t).view.emb y) = V c main_v47 i
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The same for the second left factor. -/
theorem right_block (c : Dev nD) (t : Fin cfg1.N) (y : S5000x128.Idx) (i : S100000x128.Idx)
    (h0 : (i 0).val = t.val * 5000 + (y 0).val) (h1 : (i 1).val = (y 1).val) :
    (iblk1 V c 1 t : Vec Ideal S5000x128 .f32) y = (V c main_v28 : S100000x128.Idx → EReal) i := by
  obtain ⟨-, -, e0, e1, -⟩ := block_indices t
  unfold iblk1
  rw [View.read_apply]
  show V c main_v28 (((cfg1.win 1).blk t).view.emb y) = V c main_v28 i
  congr 1
  funext a
  apply Fin.ext
  match a with
  | ⟨0, _⟩ => show win1_1.index t (0 : Fin 2) * 5000 + 1 * (y 0).val = (i 0).val; rw [e0, h0]; omega
  | ⟨1, _⟩ => show win1_1.index t (1 : Fin 2) * 128 + 1 * (y 1).val = (i 1).val; rw [e1, h1]; omega

/-- The first weight matrix's one block is the whole matrix. -/
theorem left_weights (c : Dev nD) (t : Fin cfg1.N) :
    (iblk1 V c 2 t : Vec Ideal S128x128 .bf16) = (V c main_v58 : S128x128.Idx → EReal) := by
  obtain ⟨-, -, -, -, e0, e1, -⟩ := block_indices t
  funext y
  unfold iblk1
  rw [View.read_apply]
  show V c main_v58 (((cfg1.win 2).blk t).view.emb y) = V c main_v58 y
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The second weight matrix's one block is the whole matrix. -/
theorem right_weights (c : Dev nD) (t : Fin cfg1.N) :
    (iblk1 V c 3 t : Vec Ideal S128x128 .bf16) = (V c main_v60 : S128x128.Idx → EReal) := by
  obtain ⟨-, -, -, -, -, -, e0, e1, -⟩ := block_indices t
  funext y
  unfold iblk1
  rw [View.read_apply]
  show V c main_v60 (((cfg1.win 3).blk t).view.emb y) = V c main_v60 y
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The bias row's one block is the whole row. -/
theorem bias_row (c : Dev nD) (t : Fin cfg1.N) :
    (iblk1 V c 4 t : Vec Ideal S1x128 .f32) = (V c main_v61 : S1x128.Idx → EReal) := by
  obtain ⟨-, -, -, -, -, -, -, -, e0, e1, -⟩ := block_indices t
  funext y
  unfold iblk1
  rw [View.read_apply]
  show V c main_v61 (((cfg1.win 4).blk t).view.emb y) = V c main_v61 y
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- The affine map on a block of rows is the block of the affine map on all rows: if the 5000-row factors are rows
    5000 s ... 5000 s + 4999 of the 100000-row ones, entry (p, q) of the small result is entry (5000 s + p, q) of the
    large one, because row p of the small affine map reads the same numbers as row 5000 s + p of the large one. -/
theorem dense2_rows (A X : Cert.Spec.Mat 100000 128) (A' X' : Cert.Spec.Mat 5000 128) (Wl Wr : Cert.Spec.Mat 128 128)
    (B : Cert.Spec.Mat 1 128) (s : Nat)
    (hA : ∀ (y : S5000x128.Idx) (i : S100000x128.Idx), (i 0).val = s * 5000 + (y 0).val → (i 1).val = (y 1).val → A' y = A i)
    (hX : ∀ (y : S5000x128.Idx) (i : S100000x128.Idx), (i 0).val = s * 5000 + (y 0).val → (i 1).val = (y 1).val → X' y = X i)
    (j : S5000x128.Idx) (i : S100000x128.Idx) (h0 : (i 0).val = s * 5000 + (j 0).val) (h1 : (i 1).val = (j 1).val) :
    Cert.Spec.dense2 A' X' Wl Wr B j = Cert.Spec.dense2 A X Wl Wr B i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext h1
  rw [Cert.Spec.dense2_apply, Cert.Spec.dense2_apply]
  exact congrFun (Cert.Spec.linRow_congr A' X' A X Wl Wr B p r
    (fun k => hA (ix2 p k) (ix2 r k) h0 rfl) (fun k => hX (ix2 p k) (ix2 r k) h0 rfl)) q'

/-- What point t writes back is block t of the affine map applied to the whole arrays. -/
theorem flushed_eq (c : Dev nD) (t : Fin cfg1.N) :
    (dat1 V c).flushed 5 t = ((cfg1.win 5).blk t).view.read (Elt Ideal)
      (Cert.Spec.dense2 (n := 100000) (V c main_v47) (V c main_v28) (V c main_v58) (V c main_v60) (V c main_v61)) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S128x128) zero_offsets,
    View.ld_unit_zero (S := S1x128) zero_offsets]
  rw [Pay.pay1_eq, left_weights, right_weights, bias_row]
  obtain ⟨-, -, -, -, -, -, -, -, -, -, e0, e1⟩ := block_indices t
  funext j
  rw [View.read_apply]
  refine dense2_rows _ _ _ _ _ _ _ t.val (left_block V c t) (right_block V c t) j _ ?_ ?_
  · show win1_5.index t (0 : Fin 2) * 5000 + 1 * (j 0).val = _; rw [e0]; omega
  · show win1_5.index t (1 : Fin 2) * 128 + 1 * (j 1).val = _; rw [e1]; omega

/-- An index of the result array lies in point t's block iff each coordinate lies in the block's range. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v62).slice (win1_5.rect t)).set ↔ _
  rw [View.set_slice_whole, Rect.mem_set_unit]
  exact Iff.rfl

/-- Row r of the result is written by point r / 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  have ht : t.val = (i 0).val / 5000 := rfl
  obtain ⟨-, -, -, -, -, -, -, -, -, -, e0, e1⟩ := block_indices t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 128 ≤ (i 1).val ∧ (i 1).val < win1_5.index t (1 : Fin 2) * 128 + 128
    rw [e1]; omega

/-- After the region the result array is the second layer of the arrays the region found. -/
theorem final1 (c : Dev nD) :
    (Gen.dat1 V c).arrAt 5 cfg1.N = Cert.Spec.dense2 (n := 100000) (V c main_v47) (V c main_v28) (V c main_v58)
      (V c main_v60) (V c main_v61) :=
  (dat1 V c).arrAt_eq_of_cover 5 _ (fun t _ => flushed_eq V c t) cover

end Cert.KernelIdeal.Region1

end
-- ==== Proof.RefLayer1.lean ====
/-
  The first layer: the reference's hidden features are the kernel's.

  At row r and column q both sides rectify  v_q = sum_k agg(r,k) * Wl(q,k) + sum_k x(r,k) * Wr(q,k) + b_q
  and divide by the guarded Euclidean norm of the rectified row.  The kernel adds the bias after the two
  products and the reference between them: addition on the extended reals is commutative and associative,
  infinities included, so no finiteness is needed.  The kernel reads its weights transposed, the reference
  transposes them itself; both read entry (q, k) of the argument.
-/
import proofs.«152524_j79620103733916_1_alg».proof.Proof.Gen.ReferenceIdeal.Read
import proofs.«152524_j79620103733916_1_alg».proof.Proof.KernelHost
import Idealize.ShloMosaic.Lib.ValueLayout

set_option maxRecDepth 16384

noncomputable section

open scoped BigOperators

namespace Cert.ReferenceIdeal.Layer1

open Cert.ReferenceIdeal Cert.ReferenceIdeal.Read
open Idealize.ShloMosaic Idealize.ShloMosaic.ValueIdx Idealize.SL.Sem
open Cert.KernelIdeal.HostSide Cert.Spec

variable [Cert.KernelIdeal.Facts]

variable (x0 : FVec Ideal S100000x128 .f32) (x1 : IVec S2x1600000 32) (x2 : FVec Ideal S128x128 .f32)
  (x3 : FVec Ideal S128 .f32) (x4 : FVec Ideal S128x128 .f32)

/-- The reference's neighbour mean is the kernel's: the same host operations of the same arguments. -/
theorem agg_eq : val_main_v22 (F := Ideal) x0 x1 = aggMean (F := Ideal) x0 (srcOf x1) (dstOf x1) := rfl

/-- The reference's row before the rectifier, entry by entry. -/
theorem pre_apply (r : Fin 100000) (q : Fin 128) :
    val_main_v30 (F := Ideal) x0 x1 x2 x3 x4 (ix2 r q)
      = ((∑ k : Fin 128, val_main_v22 (F := Ideal) x0 x1 (ix2 r k) * x2 (ix2 q k)) + x3 (ix1 q))
          + ∑ k : Fin 128, x0 (ix2 r k) * x4 (ix2 q k) := by
  have e1 : ∀ k : Fin 128, lidx_main_v24 (ix2 r q) k = ix2 r k := fun k => funext fun a => by
    match a with | ⟨0, _⟩ => rfl | ⟨1, _⟩ => rfl
  have e2 : ∀ k : Fin 128, idx_main_v23 (ridx_main_v24 (ix2 r q) k) = ix2 q k := fun k => funext fun a => by
    match a with | ⟨0, _⟩ => rfl | ⟨1, _⟩ => rfl
  have e3 : ∀ k : Fin 128, lidx_main_v29 (ix2 r q) k = ix2 r k := fun k => funext fun a => by
    match a with | ⟨0, _⟩ => rfl | ⟨1, _⟩ => rfl
  have e4 : ∀ k : Fin 128, idx_main_v28 (ridx_main_v29 (ix2 r q) k) = ix2 q k := fun k => funext fun a => by
    match a with | ⟨0, _⟩ => rfl | ⟨1, _⟩ => rfl
  have e5 : idx_main_v25 (idx_main_v26 (ix2 r q)) = ix1 q := funext fun a => by
    match a with | ⟨0, _⟩ => rfl
  rw [val_main_v30_apply, val_main_v27_apply, val_main_v24_apply, val_main_v26_apply, val_main_v25_apply,
    val_main_v29_apply]
  simp only [val_main_v23_apply, val_main_v28_apply, e1, e2, e3, e4, e5, Ideal.addf_def]

/-- The rectified entry. -/
theorem relu_apply (i : S100000x128.Idx) :
    val_main_v31 (F := Ideal) x0 x1 x2 x3 x4 i = max (val_main_v30 (F := Ideal) x0 x1 x2 x3 x4 i) 0 := by
  rw [val_main_v31_apply, val_main_call0_v0_apply, val_main_call0_cst_apply]
  simp only [Ideal.maximumf_def, Ideal.ofBits_def, Ideal.ofBits_zero_f32]

/-- The sum of squares of the rectified row. -/
theorem sumsq_apply (r : Fin 100000) :
    val_main_call1_v1 (F := Ideal) x0 x1 x2 x3 x4 (ix1 r)
      = ∑ k : Fin 128, val_main_v31 (F := Ideal) x0 x1 x2 x3 x4 (ix2 r k) * val_main_v31 (F := Ideal) x0 x1 x2 x3 x4 (ix2 r k) := by
  have e1 : ∀ k : Fin 128, idx_main_call1_v1 (ix1 r) k = ix2 r k := fun k => funext fun a => by
    match a with | ⟨0, _⟩ => rfl | ⟨1, _⟩ => rfl
  have hs : ∀ k : Fin 128, val_main_call1_v0 (F := Ideal) x0 x1 x2 x3 x4 (idx_main_call1_v1 (ix1 r) k)
      = val_main_v31 (F := Ideal) x0 x1 x2 x3 x4 (ix2 r k) * val_main_v31 (F := Ideal) x0 x1 x2 x3 x4 (ix2 r k) := fun k => by
    rw [e1 k, val_main_call1_v0_apply]
    exact Ideal.mulf_def _ _
  rw [val_main_call1_v1_apply, val_main_call1_cst_apply, Finset.sum_congr rfl (fun k _ => hs k)]
  show Ideal.ofBits .f32 0x00000000#32 + _ = _
  rw [Ideal.ofBits_zero_f32, zero_add]

/-- The guarded norm of the rectified row. -/
theorem norm_apply (r : Fin 100000) (u : Fin 1) :
    val_main_v34 (F := Ideal) x0 x1 x2 x3 x4 (ix2 r u)
      = max (Ideal.sqrt (∑ k : Fin 128, val_main_v31 (F := Ideal) x0 x1 x2 x3 x4 (ix2 r k)
              * val_main_v31 (F := Ideal) x0 x1 x2 x3 x4 (ix2 r k)))
          (Ideal.ofBits .f32 0x2B8CBCCC#32) := by
  have e2 : idx_main_call1_v2 (ix2 r u) = ix1 r := funext fun a => by
    match a with | ⟨0, _⟩ => rfl
  have h1 : val_main_call1_v1 (F := Ideal) x0 x1 x2 x3 x4 (idx_main_call1_v2 (ix2 r u))
      = ∑ k : Fin 128, val_main_v31 (F := Ideal) x0 x1 x2 x3 x4 (ix2 r k) * val_main_v31 (F := Ideal) x0 x1 x2 x3 x4 (ix2 r k) :=
    (congrArg (val_main_call1_v1 (F := Ideal) x0 x1 x2 x3 x4) e2).trans (sumsq_apply x0 x1 x2 x3 x4 r)
  have h2 : val_main_v33 (F := Ideal) (ix2 r u) = Ideal.ofBits .f32 0x2B8CBCCC#32 := by
    rw [val_main_v33_apply, val_main_cst_4_apply]
    rfl
  have h3 : val_main_v32 (F := Ideal) x0 x1 x2 x3 x4 (ix2 r u)
      = Ideal.sqrt (∑ k : Fin 128, val_main_v31 (F := Ideal) x0 x1 x2 x3 x4 (ix2 r k) * val_main_v31 (F := Ideal) x0 x1 x2 x3 x4 (ix2 r k)) := by
    refine (val_main_v32_apply (F := Ideal) x0 x1 x2 x3 x4 (ix2 r u)).trans ?_
    refine (congrArg (FloatOps.hostUnary (F := Ideal) (φ := .f32) .sqrt) ((val_main_call1_v2_apply (F := Ideal) x0 x1 x2 x3 x4 (ix2 r u)).trans h1)).trans ?_
    exact Ideal.hostUnary_sqrt_def _
  refine (val_main_v34_apply (F := Ideal) x0 x1 x2 x3 x4 (ix2 r u)).trans ?_
  refine (congrArg₂ (FloatOps.maximumf (F := Ideal) (φ := .f32)) h3 h2).trans ?_
  exact Ideal.maximumf_def _ _

/-- The reference's hidden feature at (r, q). -/
theorem out_apply (r : Fin 100000) (q : Fin 128) :
    val_main_v36 (F := Ideal) x0 x1 x2 x3 x4 (ix2 r q)
      = Ideal.div (val_main_v31 (F := Ideal) x0 x1 x2 x3 x4 (ix2 r q))
          (val_main_v34 (F := Ideal) x0 x1 x2 x3 x4 (ix2 r (0 : Fin 1))) := by
  have e1 : idx_main_v35 (ix2 r q) = ix2 r (0 : Fin 1) := funext fun a => by
    match a with | ⟨0, _⟩ => rfl | ⟨1, _⟩ => rfl
  rw [val_main_v36_apply, val_main_v35_apply, e1]
  rfl

/-- A transposed weight matrix read at (k, q) is the argument at (q, k). -/
theorem wT_apply (w : FVec Ideal S128x128 .f32) (k q : Fin 128) : wT (F := Ideal) w (ix2 k q) = w (ix2 q k) := by
  unfold wT
  exact transpose_ix2_apply w _ k q

/-- A bias as a one-row matrix read at (0, q) is the argument at q. -/
theorem bRow_apply (b : FVec Ideal S128 .f32) (u : Fin 1) (q : Fin 128) : bRow (F := Ideal) b (ix2 u q) = b (ix1 q) := by
  unfold bRow
  exact shapeCast_a_1a_apply b _ u q

/-- The kernel's affine row is the reference's: the bias moved past the second product. -/
theorem row_eq (r : Fin 100000) (q : Fin 128) :
    linRow (n := 100000) (aggMean (F := Ideal) x0 (srcOf x1) (dstOf x1)) x0 (wT (F := Ideal) x2) (wT (F := Ideal) x4)
        (bRow (F := Ideal) x3) r q
      = val_main_v30 (F := Ideal) x0 x1 x2 x3 x4 (ix2 r q) := by
  rw [pre_apply, agg_eq]
  unfold linRow lin
  simp only [wT_apply, bRow_apply]
  exact add_right_comm _ _ _

/-- THE FIRST LAYER: the kernel's hidden features are the reference's, entry by entry. -/
theorem hidden_eq : Cert.KernelIdeal.HostSide.hidden x0 x1 x2 x3 x4 = val_main_v36 (F := Ideal) x0 x1 x2 x3 x4 := by
  funext i
  obtain ⟨r, q, rfl⟩ : ∃ (r : Fin 100000) (q : Fin 128), i = ix2 r q := ⟨i 0, i 1, eq_ix2 i⟩
  unfold Cert.KernelIdeal.HostSide.hidden
  rw [dense1_apply, out_apply, norm_apply]
  simp only [relu_apply]
  unfold act
  simp only [row_eq]

end Cert.ReferenceIdeal.Layer1

end
-- ==== Proof.LibScatterSet.lean ====
/-
  A scatter that SETS, read at one place.

  `Host.scatter d (fun _ b => b) x idx upd` is a left fold over the positions of the update, in row-major
  order: each position writes its element at the place it lands on (`d.resultIdx?`), or nothing when it lands
  outside the array.  If exactly one position lands on a place, that place ends holding that position's element
  (the last write wins, and there is only one); a place on which no position lands keeps the operand's element.
  For any shapes, any dimension record and any element type.
-/
import Idealize.ShloMosaic.PureOps.ShapeOps

namespace Cert.Lib.ScatterSet

open Idealize.ShloMosaic

/-! ## The fold of overwrites, read at one place -/

section Fold

variable {α : Type} {s si u : Shape} {w : Nat}

/-- One step of the fold: position `n` of the update overwrites the place it lands on, if it lands
    inside the array. -/
def step (d : ScatterDims s si u) (idx : IVec si w) (upd : u.Idx → α) (r : s.Idx → α) (n : Fin u.numel) :
    s.Idx → α :=
  match d.resultIdx? (u.rowMajor.symm n) idx with
  | some i => fun i' => if i' = i then (fun _ b => b) (r i) (upd (u.rowMajor.symm n)) else r i'
  | none => r

/-- The scatter that sets is the fold of these steps over all positions of the update. -/
theorem scatter_eq_foldl (d : ScatterDims s si u) (x : s.Idx → α) (idx : IVec si w) (upd : u.Idx → α) :
    Host.scatter d (fun _ b => b) x idx upd = (List.finRange u.numel).foldl (step d idx upd) x := rfl

/-- A step that lands elsewhere (or nowhere) leaves the place `i` as it was. -/
theorem step_miss (d : ScatterDims s si u) (idx : IVec si w) (upd : u.Idx → α) (r : s.Idx → α) (n : Fin u.numel)
    (i : s.Idx) (h : d.resultIdx? (u.rowMajor.symm n) idx ≠ some i) : step d idx upd r n i = r i := by
  unfold step
  cases h0 : d.resultIdx? (u.rowMajor.symm n) idx with
  | none => rfl
  | some i0 =>
    have hne : i ≠ i0 := fun e => h (e ▸ h0)
    exact if_neg hne

/-- A step that lands on the place `i` leaves the update's element there. -/
theorem step_hit (d : ScatterDims s si u) (idx : IVec si w) (upd : u.Idx → α) (r : s.Idx → α) (n : Fin u.numel)
    (i : s.Idx) (h : d.resultIdx? (u.rowMajor.symm n) idx = some i) :
    step d idx upd r n i = upd (u.rowMajor.symm n) := by
  unfold step
  rw [h]
  exact if_pos rfl

/-- Steps none of which lands on `i` leave that place as it was. -/
theorem foldl_miss (d : ScatterDims s si u) (idx : IVec si w) (upd : u.Idx → α) (i : s.Idx) (l : List (Fin u.numel))
    (r : s.Idx → α) (h : ∀ m ∈ l, d.resultIdx? (u.rowMajor.symm m) idx ≠ some i) :
    l.foldl (step d idx upd) r i = r i := by
  induction l generalizing r with
  | nil => rfl
  | cons a l ih =>
    rw [List.foldl_cons, ih _ (fun m hm => h m (List.mem_cons_of_mem _ hm))]
    exact step_miss d idx upd r a i (h a List.mem_cons_self)

/-- If `n` is the only position that lands on `i`, then after any run of steps that contains `n` the
    place `i` holds the update's element at `n`: the last time `n` occurs it writes that element, and
    no later step lands there. -/
theorem foldl_hit (d : ScatterDims s si u) (idx : IVec si w) (upd : u.Idx → α) (i : s.Idx) (n : Fin u.numel)
    (hn : d.resultIdx? (u.rowMajor.symm n) idx = some i)
    (huniq : ∀ m, d.resultIdx? (u.rowMajor.symm m) idx = some i → m = n)
    (l : List (Fin u.numel)) (r : s.Idx → α) (hmem : n ∈ l) :
    l.foldl (step d idx upd) r i = upd (u.rowMajor.symm n) := by
  induction l generalizing r with
  | nil => exact absurd hmem (by simp)
  | cons a l ih =>
    rw [List.foldl_cons]
    by_cases hl : n ∈ l
    · exact ih _ hl
    · have ha : a = n := by
        rcases List.mem_cons.1 hmem with e | e
        · exact e.symm
        · exact absurd e hl
      subst ha
      rw [foldl_miss d idx upd i l _ (fun m hm e => hl (huniq m e ▸ hm))]
      exact step_hit d idx upd r a i hn

/-- The scatter that sets, read at a place on which exactly one position of the update lands, is the
    update's element at that position. -/
theorem scatter_set_apply (d : ScatterDims s si u) (x : s.Idx → α) (idx : IVec si w) (upd : u.Idx → α)
    (i : s.Idx) (j : u.Idx) (hj : d.resultIdx? j idx = some i)
    (huniq : ∀ j', d.resultIdx? j' idx = some i → j' = j) :
    Host.scatter d (fun _ b => b) x idx upd i = upd j := by
  rw [scatter_eq_foldl]
  have hjs : u.rowMajor.symm (u.rowMajor j) = j := u.rowMajor.symm_apply_apply j
  have := foldl_hit d idx upd i (u.rowMajor j) (by rw [hjs]; exact hj)
    (fun m hm => by rw [← huniq _ hm, Equiv.apply_symm_apply]) (List.finRange u.numel) x (List.mem_finRange _)
  rw [this, hjs]

end Fold

end Cert.Lib.ScatterSet
-- ==== Proof.PadSet.lean ====
/-
  A block of leading rows set once.

  The padding step of the program writes a 40-row block (a 40 x 128 matrix, or a length-40 vector) into
  the leading rows of a 128-row array by a scatter whose body returns the update, at the one start
  index 0.  The scatter is a left fold over the update's positions: each position writes its element at
  the place it lands on.  Here every position (j, k) of the block lands on the place (j, k) of the
  array, so distinct positions land on distinct places, each place of the leading block is written
  exactly once, and after the fold it holds the one update element that landed there.
-/
import proofs.«152524_j79620103733916_1_alg».proof.KernelIdeal
import Idealize.ShloMosaic.Lib.ValueIdx
import proofs.«152524_j79620103733916_1_alg».proof.Proof.LibScatterSet

namespace Cert.KernelIdeal.PadSet

open Cert.KernelIdeal Idealize.ShloMosaic Idealize.ShloMosaic.ValueIdx Cert.Lib.ScatterSet

/-! ## The two padding scatters -/

section Records

variable [Cert.KernelIdeal.Facts]
open Facts₀ Facts
variable {α : Type}

/-- The matrix scatter's window starts at 0 on both axes: the start word is 0 on the row axis, and the
    column axis is not scattered. -/
theorem start_mat (j : S40x128.Idx) (idx : IVec S1 32) (hidx : ∀ i, idx i = 0#32) (a : Fin 2) :
    scatter_S128x128_S1_S40x128_01_n_0_0.start j idx a = 0 := by
  unfold ScatterDims.start
  split
  · rw [hidx]; rfl
  · rfl

/-- Its window coordinate on the row axis is the block position's row … -/
theorem window_mat0 (j : S40x128.Idx) : scatter_S128x128_S1_S40x128_01_n_0_0.window j ⟨0, by decide⟩ = (j 0).val := by
  unfold ScatterDims.window
  rw [dif_pos (by simp [scatter_S128x128_S1_S40x128_01_n_0_0, ScatterDims.sKept, Shape.kept, List.finRange])]
  rfl

/-- … and on the column axis the block position's column. -/
theorem window_mat1 (j : S40x128.Idx) : scatter_S128x128_S1_S40x128_01_n_0_0.window j ⟨1, by decide⟩ = (j 1).val := by
  unfold ScatterDims.window
  rw [dif_pos (by simp [scatter_S128x128_S1_S40x128_01_n_0_0, ScatterDims.sKept, Shape.kept, List.finRange])]
  rfl

/-- The vector scatter's window starts at 0. -/
theorem start_vec (j : S40.Idx) (idx : IVec S1 32) (hidx : ∀ i, idx i = 0#32) (a : Fin 1) :
    scatter_S128_S1_S40_0_n_0_0.start j idx a = 0 := by
  unfold ScatterDims.start
  split
  · rw [hidx]; rfl
  · rfl

/-- Its window coordinate is the block position. -/
theorem window_vec0 (j : S40.Idx) : scatter_S128_S1_S40_0_n_0_0.window j ⟨0, by decide⟩ = (j 0).val := by
  unfold ScatterDims.window
  rw [dif_pos (by simp [scatter_S128_S1_S40_0_n_0_0, ScatterDims.sKept, Shape.kept, List.finRange])]
  rfl

/-- Position `(j, k)` of the 40 x 128 block lands on the place `(j, k)` of the 128 x 128 array, which is inside it. -/
theorem resultIdx_mat (idx : IVec S1 32) (hidx : ∀ i, idx i = 0#32) (j : Fin 40) (k : Fin 128) :
    scatter_S128x128_S1_S40x128_01_n_0_0.resultIdx? (ix2 j k) idx
      = some (ix2 (⟨j.val, by omega⟩ : Fin 128) k) := by
  have hj := j.isLt
  have hk := k.isLt
  have hall : ∀ a : Fin 2,
      0 ≤ scatter_S128x128_S1_S40x128_01_n_0_0.start (ix2 j k) idx a
            + scatter_S128x128_S1_S40x128_01_n_0_0.window (ix2 j k) a ∧
      scatter_S128x128_S1_S40x128_01_n_0_0.start (ix2 j k) idx a
            + scatter_S128x128_S1_S40x128_01_n_0_0.window (ix2 j k) a < S128x128.size a := by
    intro a
    rw [start_mat _ idx hidx a]
    match a with
    | ⟨0, _⟩ =>
      rw [window_mat0]
      show 0 ≤ (0 : Int) + (j.val : Int) ∧ (0 : Int) + (j.val : Int) < ((128 : Nat) : Int)
      omega
    | ⟨1, _⟩ =>
      rw [window_mat1]
      show 0 ≤ (0 : Int) + (k.val : Int) ∧ (0 : Int) + (k.val : Int) < ((128 : Nat) : Int)
      omega
  unfold ScatterDims.resultIdx?
  rw [dif_pos hall]
  congr 1
  funext a
  apply Fin.ext
  match a with
  | ⟨0, h0⟩ =>
    show (scatter_S128x128_S1_S40x128_01_n_0_0.start (ix2 j k) idx ⟨0, h0⟩
            + scatter_S128x128_S1_S40x128_01_n_0_0.window (ix2 j k) ⟨0, h0⟩).toNat = j.val
    rw [start_mat _ idx hidx, window_mat0]
    show ((0 : Int) + (j.val : Int)).toNat = j.val
    omega
  | ⟨1, h1⟩ =>
    show (scatter_S128x128_S1_S40x128_01_n_0_0.start (ix2 j k) idx ⟨1, h1⟩
            + scatter_S128x128_S1_S40x128_01_n_0_0.window (ix2 j k) ⟨1, h1⟩).toNat = k.val
    rw [start_mat _ idx hidx, window_mat1]
    show ((0 : Int) + (k.val : Int)).toNat = k.val
    omega

/-- Position `j` of the length-40 block lands on the place `j` of the length-128 array. -/
theorem resultIdx_vec (idx : IVec S1 32) (hidx : ∀ i, idx i = 0#32) (j : Fin 40) :
    scatter_S128_S1_S40_0_n_0_0.resultIdx? (ix1 j) idx = some (ix1 (⟨j.val, by omega⟩ : Fin 128)) := by
  have hj := j.isLt
  have hall : ∀ a : Fin 1,
      0 ≤ scatter_S128_S1_S40_0_n_0_0.start (ix1 j) idx a + scatter_S128_S1_S40_0_n_0_0.window (ix1 j) a ∧
      scatter_S128_S1_S40_0_n_0_0.start (ix1 j) idx a + scatter_S128_S1_S40_0_n_0_0.window (ix1 j) a
        < S128.size a := by
    intro a
    rw [start_vec _ idx hidx a]
    match a with
    | ⟨0, _⟩ =>
      rw [window_vec0]
      show 0 ≤ (0 : Int) + (j.val : Int) ∧ (0 : Int) + (j.val : Int) < ((128 : Nat) : Int)
      omega
  unfold ScatterDims.resultIdx?
  rw [dif_pos hall]
  congr 1
  funext a
  apply Fin.ext
  match a with
  | ⟨0, h0⟩ =>
    show (scatter_S128_S1_S40_0_n_0_0.start (ix1 j) idx ⟨0, h0⟩
            + scatter_S128_S1_S40_0_n_0_0.window (ix1 j) ⟨0, h0⟩).toNat = j.val
    rw [start_vec _ idx hidx, window_vec0]
    show ((0 : Int) + (j.val : Int)).toNat = j.val
    omega

/-- The padded matrix, read at a place `(j, k)` of its leading 40 rows, is the block's element `(j, k)`. -/
theorem padMat_apply (z : (⟨2, ![128, 128]⟩ : Shape).Idx → α) (idx : IVec S1 32) (hidx : ∀ i, idx i = 0#32)
    (x : (⟨2, ![40, 128]⟩ : Shape).Idx → α) (j : Fin 40) (k : Fin 128) :
    Host.scatter scatter_S128x128_S1_S40x128_01_n_0_0 (fun _ b => b) z idx x (ix2 (⟨j.val, by omega⟩ : Fin 128) k)
      = x (ix2 j k) := by
  refine scatter_set_apply _ z idx x _ (ix2 j k) (resultIdx_mat idx hidx j k) ?_
  intro j' hj'
  obtain ⟨p, q, rfl⟩ : ∃ (p : Fin 40) (q : Fin 128), j' = ix2 p q := ⟨j' 0, j' 1, eq_ix2 j'⟩
  rw [resultIdx_mat idx hidx p q] at hj'
  have h := Option.some.inj hj'
  have h0 : (⟨p.val, by omega⟩ : Fin 128) = ⟨j.val, by omega⟩ := congrFun h (0 : Fin 2)
  have h1 : q = k := congrFun h (1 : Fin 2)
  have hp : p = j := Fin.ext (Fin.mk.inj h0)
  rw [hp, h1]

/-- The padded vector, read at a place `j` of its leading 40 entries, is the block's entry `j`. -/
theorem padVec_apply (z : (⟨1, ![128]⟩ : Shape).Idx → α) (idx : IVec S1 32) (hidx : ∀ i, idx i = 0#32)
    (x : (⟨1, ![40]⟩ : Shape).Idx → α) (j : Fin 40) :
    Host.scatter scatter_S128_S1_S40_0_n_0_0 (fun _ b => b) z idx x (ix1 (⟨j.val, by omega⟩ : Fin 128))
      = x (ix1 j) := by
  refine scatter_set_apply _ z idx x _ (ix1 j) (resultIdx_vec idx hidx j) ?_
  intro j' hj'
  obtain ⟨p, rfl⟩ : ∃ (p : Fin 40), j' = ix1 p := ⟨j' 0, eq_ix1 j'⟩
  rw [resultIdx_vec idx hidx p] at hj'
  have h := Option.some.inj hj'
  have h0 : (⟨p.val, by omega⟩ : Fin 128) = ⟨j.val, by omega⟩ := congrFun h (0 : Fin 1)
  have hp : p = j := Fin.ext (Fin.mk.inj h0)
  rw [hp]

/-- The start index the program passes: the word 0 at its one entry. -/
theorem idx_printed (i : S1.Idx) : broadcastInDim S1 ![] bcast_S_S1 (constantI S_ 32 0#32) i = 0#32 := rfl

/-- The padded matrix at the operands the program passes: a zero matrix and the start index 0. -/
theorem padMat_printed (x : (⟨2, ![40, 128]⟩ : Shape).Idx → EReal) (j : Fin 40) (k : Fin 128) :
    Host.scatter scatter_S128x128_S1_S40x128_01_n_0_0 (fun _ b => b)
        (broadcastInDim S128x128 ![] bcast_S_S128x128 (constant (F := Ideal) S_ .f32 0x00000000#32))
        (broadcastInDim S1 ![] bcast_S_S1 (constantI S_ 32 0#32)) x (ix2 (⟨j.val, by omega⟩ : Fin 128) k)
      = x (ix2 j k) :=
  padMat_apply _ _ idx_printed x j k

/-- The padded vector at the operands the program passes: a zero vector and the start index 0. -/
theorem padVec_printed (x : (⟨1, ![40]⟩ : Shape).Idx → EReal) (j : Fin 40) :
    Host.scatter scatter_S128_S1_S40_0_n_0_0 (fun _ b => b)
        (broadcastInDim S128 ![] bcast_S_S128 (constant (F := Ideal) S_ .f32 0x00000000#32))
        (broadcastInDim S1 ![] bcast_S_S1 (constantI S_ 32 0#32)) x (ix1 (⟨j.val, by omega⟩ : Fin 128))
      = x (ix1 j) :=
  padVec_apply _ _ idx_printed x j

end Records

end Cert.KernelIdeal.PadSet
-- ==== Proof.RefLayer2.lean ====
/-
  The second layer and the whole result.

  At row r and column j < 40 the reference computes  (sum_k agg(r,k) * Wl2(j,k) + bl2_j) + sum_k h(r,k) * Wr2(j,k).
  The kernel first writes Wl2, Wr2 and bl2 into the leading 40 rows of zero arrays of 128 rows, applies the
  affine map with 128 output columns, and keeps the first 40: column j < 40 of the padded weights is row j of
  the weights themselves, so the kept columns hold the same sums, with the bias added after both products
  instead of between them.  The hidden features h are equal by the first layer, and so are their neighbour means.
-/
import proofs.«152524_j79620103733916_1_alg».proof.Proof.RefLayer1
import proofs.«152524_j79620103733916_1_alg».proof.Proof.PadSet

set_option maxRecDepth 16384

noncomputable section

open scoped BigOperators

namespace Cert.ReferenceIdeal.Layer2

open Cert.ReferenceIdeal Cert.ReferenceIdeal.Read
open Idealize.ShloMosaic Idealize.ShloMosaic.ValueIdx Idealize.SL.Sem
open Cert.KernelIdeal.HostSide Cert.Spec

variable [Cert.KernelIdeal.Facts]

variable (x0 : FVec Ideal S100000x128 .f32) (x1 : IVec S2x1600000 32) (x2 : FVec Ideal S128x128 .f32)
  (x3 : FVec Ideal S128 .f32) (x4 : FVec Ideal S128x128 .f32) (x5 : FVec Ideal S40x128 .f32) (x6 : FVec Ideal S40 .f32)
  (x7 : FVec Ideal S40x128 .f32)

/-- The reference's second neighbour mean is the kernel's, of the reference's hidden features. -/
theorem agg2_eq : val_main_v55 (F := Ideal) x0 x1 x2 x3 x4
    = aggMean (F := Ideal) (val_main_v36 (F := Ideal) x0 x1 x2 x3 x4) (srcOf x1) (dstOf x1) := rfl

/-- The reference's result, entry by entry. -/
theorem ref_apply (r : Fin 100000) (j : Fin 40) :
    val_main_v63 (F := Ideal) x0 x1 x2 x3 x4 x5 x6 x7 (ix2 r j)
      = ((∑ k : Fin 128, val_main_v55 (F := Ideal) x0 x1 x2 x3 x4 (ix2 r k) * x5 (ix2 j k)) + x6 (ix1 j))
          + ∑ k : Fin 128, val_main_v36 (F := Ideal) x0 x1 x2 x3 x4 (ix2 r k) * x7 (ix2 j k) := by
  have e1 : ∀ k : Fin 128, lidx_main_v57 (ix2 r j) k = ix2 r k := fun k => funext fun a => by
    match a with | ⟨0, _⟩ => rfl | ⟨1, _⟩ => rfl
  have e2 : ∀ k : Fin 128, idx_main_v56 (ridx_main_v57 (ix2 r j) k) = ix2 j k := fun k => funext fun a => by
    match a with | ⟨0, _⟩ => rfl | ⟨1, _⟩ => rfl
  have e3 : ∀ k : Fin 128, lidx_main_v62 (ix2 r j) k = ix2 r k := fun k => funext fun a => by
    match a with | ⟨0, _⟩ => rfl | ⟨1, _⟩ => rfl
  have e4 : ∀ k : Fin 128, idx_main_v61 (ridx_main_v62 (ix2 r j) k) = ix2 j k := fun k => funext fun a => by
    match a with | ⟨0, _⟩ => rfl | ⟨1, _⟩ => rfl
  have e5 : idx_main_v58 (idx_main_v59 (ix2 r j)) = ix1 j := funext fun a => by
    match a with | ⟨0, _⟩ => rfl
  rw [val_main_v63_apply, val_main_v60_apply, val_main_v57_apply, val_main_v59_apply, val_main_v58_apply,
    val_main_v62_apply]
  simp only [val_main_v56_apply, val_main_v61_apply, e1, e2, e3, e4, e5, Ideal.addf_def]

/-- A padded, transposed weight matrix read at (k, j) with j among the first 40 columns is the weights at (j, k). -/
theorem padW_apply (w : FVec Ideal S40x128 .f32) (k : Fin 128) (j : Fin 40) :
    wT (F := Ideal) (padMat (F := Ideal) w) (ix2 k (⟨j.val, by omega⟩ : Fin 128)) = w (ix2 j k) := by
  rw [Layer1.wT_apply]
  unfold padMat
  exact Cert.KernelIdeal.PadSet.padMat_printed w j k

/-- A padded bias as a one-row matrix read at (0, j) with j among the first 40 columns is the bias at j. -/
theorem padB_apply (b : FVec Ideal S40 .f32) (u : Fin 1) (j : Fin 40) :
    bRow (F := Ideal) (padVec (F := Ideal) b) (ix2 u (⟨j.val, by omega⟩ : Fin 128)) = b (ix1 j) := by
  rw [Layer1.bRow_apply]
  unfold padVec
  exact Cert.KernelIdeal.PadSet.padVec_printed b j

/-- THE RESULT: the kernel program's function of the arguments is the reference's. -/
theorem result_eq : kernelOut x0 x1 x2 x3 x4 x5 x6 x7 = val_main_v63 (F := Ideal) x0 x1 x2 x3 x4 x5 x6 x7 := by
  unfold kernelOut
  rw [Layer1.hidden_eq, ← agg2_eq]
  funext i
  obtain ⟨r, j, rfl⟩ : ∃ (r : Fin 100000) (j : Fin 40), i = ix2 r j := ⟨i 0, i 1, eq_ix2 i⟩
  rw [ref_apply]
  refine (slice2_axis1_apply 0 _ _ r j (⟨j.val, by omega⟩ : Fin 128) (Nat.zero_add _).symm).trans ?_
  rw [dense2_apply]
  unfold linRow lin
  simp only [padW_apply, padB_apply]
  exact add_right_comm _ _ _

end Cert.ReferenceIdeal.Layer2

end
-- ==== Proof.lean ====
/-
  The certificate of a two-layer graph network: a Pallas kernel for the dense part of each layer, host
  gather / scatter-add for the neighbour mean, against a plain reference.

  Each layer averages the feature rows of every node's in-neighbours and applies
      out = mean @ Wl^T + h @ Wr^T + b
  (the first layer then rectifies and divides each row by its Euclidean norm, guarded from below).  The kernel
  program computes the dense part on a grid of 20 blocks of 5000 rows, with the bias added after both products
  where the reference adds it between them, and for the second layer pads the 40 output columns to 128 with zero
  weights and slices them off again.  On the extended reals addition is commutative and associative at the
  infinities too, a padded column never reaches the result, and the neighbour mean is the same host function on
  both sides, so the two results are equal entry by entry with no use of the finiteness of the inputs.

  The argument, in order: the two layers as functions of whole arrays; a grid point computes the layer on its block
  of rows, and a row of a layer depends on that row of the left factors only, so a whole grid leaves the layer of
  the arrays it was entered with; the program's result is the fold of its five stretches from the launch memory;
  the reference's layers read entry by entry give the same sums.
-/
import proofs.«152524_j79620103733916_1_alg».proof.Defs
import proofs.«152524_j79620103733916_1_alg».proof.Proof.Gen.Kernel
import proofs.«152524_j79620103733916_1_alg».proof.Proof.Gen.Kernel.Skeleton
import proofs.«152524_j79620103733916_1_alg».proof.Proof.Gen.Kernel.Launch
import proofs.«152524_j79620103733916_1_alg».proof.Proof.Gen.Kernel.Points
import proofs.«152524_j79620103733916_1_alg».proof.Proof.Gen.Kernel.Frame
import proofs.«152524_j79620103733916_1_alg».proof.Proof.Gen.KernelIdeal
import proofs.«152524_j79620103733916_1_alg».proof.Proof.Gen.KernelIdeal.Skeleton
import proofs.«152524_j79620103733916_1_alg».proof.Proof.Gen.KernelIdeal.Launch
import proofs.«152524_j79620103733916_1_alg».proof.Proof.Gen.KernelIdeal.Points
import proofs.«152524_j79620103733916_1_alg».proof.Proof.Gen.KernelIdeal.Frame
import proofs.«152524_j79620103733916_1_alg».proof.Proof.Gen.ReferenceIdeal
import proofs.«152524_j79620103733916_1_alg».proof.Proof.Gen.ReferenceIdeal.Run
import proofs.«152524_j79620103733916_1_alg».proof.Proof.Gen.ReferenceIdeal.Read
import proofs.«152524_j79620103733916_1_alg».proof.Proof.Gen.Pre_finite_inputs
import proofs.«152524_j79620103733916_1_alg».proof.Proof.KernelRun
import proofs.«152524_j79620103733916_1_alg».proof.Proof.KernelFold
import proofs.«152524_j79620103733916_1_alg».proof.Proof.Region0
import proofs.«152524_j79620103733916_1_alg».proof.Proof.Region1
import proofs.«152524_j79620103733916_1_alg».proof.Proof.RefLayer2
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_p : Cert.frame_Kernel := fun m ρ _ => Cert.Kernel.Gen.frame m ρ

/-- So does the kernel program read on the extended reals. -/
theorem frame_pi : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel program's run ends with the result buffer at `kernelOut` of the arguments (the run with the result
    named, read back through the five stretches), the reference's at its composed term, and the two are one
    function of arguments that agree. -/
theorem algebraic : Cert.algebraic_KernelIdeal_ReferenceIdeal := by
  intro m ρ m' ρ' _ hagree
  refine ⟨fun c => Cert.KernelIdeal.HostSide.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.result_eq m ρ Cert.KernelIdeal.Region0.final0 Cert.KernelIdeal.Region1.final1 c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v63_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.ReferenceIdeal.Layer2.result_eq _ _ _ _ _ _ _ _).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
